-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S512 .f32) (main_arg12 : FVec F S512x512 .f32) (main_arg13 : FVec F S512 .f32) (main_v48 : IVec S_ 1) (main_v49 : FVec F S1024x512 .f32) (main_v50 : FVec F S1024x512 .f32) : IVec S_ 1 :=
  let main_v51 : IVec S1024x512 1 := cmpf .olt main_v49 main_v50
  let main_c_19 : IVec S_ 1 := constantI S_ 1 1#1
  let main_v52 : IVec S_ 1 := (fun x v => Host.reduce IntOp.andi x v reducesTo_S1024x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  let main_v59 : FVec F S512x512 .f32 := Host.absf main_arg12
  let main_cst_22 : FVec F S_ .f32 := constant S_ .f32 0x7F800000#32
  let main_v60 : FVec F S512x512 .f32 := broadcastInDim S512x512 ![] bcast_S_S512x512 main_cst_22
  let main_v61 : IVec S512x512 1 := cmpf .olt main_v59 main_v60
  let main_c_23 : IVec S_ 1 := constantI S_ 1 1#1
  let main_v62 : IVec S_ 1 := (fun x v => Host.reduce IntOp.andi x v reducesTo_S512x512_S_d0_1 h_S_) main_v61 main_c_23
  let main_v63 : IVec S_ 1 := andi main_v58 main_v62
  let main_v64 : FVec F S512 .f32 := Host.absf main_arg13
  let main_cst_24 : FVec F S_ .f32 := constant S_ .f32 0x7F800000#32
  let main_v65 : FVec F S512 .f32 := broadcastInDim S512 ![] bcast_S_S512 main_cst_24
  let main_v66 : IVec S512 1 := cmpf .olt main_v64 main_v65
  let main_c_25 : IVec S_ 1 := constantI S_ 1 1#1
  let main_v67 : IVec S_ 1 := (fun x v => Host.reduce IntOp.andi x v reducesTo_S512_S_d0 h_S_) main_v66 main_c_25
  fn_part4 (F := F) main_v63 main_v67

def fn_part2 {F : FTy → Type} [FloatOps F] (main_arg7 : FVec F S512 .f32) (main_arg8 : FVec F S512x512 .f32) (main_arg9 : FVec F S512 .f32) (main_arg10 : FVec F S1024x512 .f32) (main_arg11 : FVec F S512 .f32) (main_arg12 : FVec F S512x512 .f32) (main_arg13 : FVec F S512 .f32) (main_v33 : IVec S_ 1) : IVec S_ 1 :=
  let main_v34 : FVec F S512 .f32 := Host.absf main_arg7
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_v39 : FVec F S512x512 .f32 := Host.absf main_arg8
  let main_cst_14 : FVec F S_ .f32 := constant S_ .f32 0x7F800000#32
  let main_v40 : FVec F S512x512 .f32 := broadcastInDim S512x512 ![] bcast_S_S512x512 main_cst_14
  let main_v41 : IVec S512x512 1 := cmpf .olt main_v39 main_v40
  let main_c_15 : IVec S_ 1 := constantI S_ 1 1#1
  let main_v42 : IVec S_ 1 := (fun x v => Host.reduce IntOp.andi x v reducesTo_S512x512_S_d0_1 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S1024x512 .f32 := Host.absf main_arg10
  let main_cst_18 : FVec F S_ .f32 := constant S_ .f32 0x7F800000#32
  let main_v50 : FVec F S1024x512 .f32 := broadcastInDim S1024x512 ![] bcast_S_S1024x512 main_cst_18
  fn_part3 (F := F) main_arg11 main_arg12 main_arg13 main_v48 main_v49 main_v50

def fn_part1 {F : FTy → Type} [FloatOps F] (main_arg4 : FVec F S512x512 .f32) (main_arg5 : FVec F S512 .f32) (main_arg6 : FVec F S1024x512 .f32) (main_arg7 : FVec F S512 .f32) (main_arg8 : FVec F S512x512 .f32) (main_arg9 : FVec F S512 .f32) (main_arg10 : FVec F S1024x512 .f32) (main_arg11 : FVec F S512 .f32) (main_arg12 : FVec F S512x512 .f32) (main_arg13 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x512 .f32 := Host.absf main_arg4
  let main_cst_6 : FVec F S_ .f32 := constant S_ .f32 0x7F800000#32
  let main_v20 : FVec F S512x512 .f32 := broadcastInDim S512x512 ![] bcast_S_S512x512 main_cst_6
  let main_v21 : IVec S512x512 1 := cmpf .olt main_v19 main_v20
  let main_c_7 : IVec S_ 1 := constantI S_ 1 1#1
  let main_v22 : IVec S_ 1 := (fun x v => Host.reduce IntOp.andi x v reducesTo_S512x512_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S32768x1024 .f32) (main_arg1 : FVec F S32768x512 .f32) (main_arg2 : FVec F S1024x512 .f32) (main_arg3 : FVec F S512 .f32) (main_arg4 : FVec F S512x512 .f32) (main_arg5 : FVec F S512 .f32) (main_arg6 : FVec F S1024x512 .f32) (main_arg7 : FVec F S512 .f32) (main_arg8 : FVec F S512x512 .f32) (main_arg9 : FVec F S512 .f32) (main_arg10 : FVec F S1024x512 .f32) (main_arg11 : FVec F S512 .f32) (main_arg12 : FVec F S512x512 .f32) (main_arg13 : FVec F S512 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_arg6 main_arg7 main_arg8 main_arg9 main_arg10 main_arg11 main_arg12 main_arg13 main_v13 main_v16
-- ==== Kernel.lean ====
abbrev S32768x1024 : Shape := ⟨2, ![32768, 1024]⟩
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S1024x1536 : Shape := ⟨2, ![1024, 1536]⟩
abbrev S1536 : Shape := ⟨1, ![1536]⟩
abbrev S512x1024 : Shape := ⟨2, ![512, 1024]⟩
abbrev S1024 : Shape := ⟨1, ![1024]⟩
abbrev S512x1536 : Shape := ⟨2, ![512, 1536]⟩
abbrev S1x1536 : Shape := ⟨2, ![1, 1536]⟩
abbrev S1x1024 : Shape := ⟨2, ![1, 1024]⟩
abbrev S1x512 : Shape := ⟨2, ![1, 512]⟩

abbrev nBuf : Space → Nat
  | .hbm => 22
  | .vmem => 12
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x1536, .f32⟩
  | .hbm, ⟨15, _⟩ => ⟨S1024x1536, .bf16⟩
  | .hbm, ⟨16, _⟩ => ⟨S1536, .f32⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S512x512, .bf16⟩
  | .hbm, ⟨21, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S1024x1536, .bf16⟩
  | .local _ .vmem, ⟨5, _⟩ => ⟨S1536, .f32⟩
  | .local _ .vmem, ⟨6, _⟩ => ⟨S512x1024, .bf16⟩
  | .local _ .vmem, ⟨7, _⟩ => ⟨S1024, .f32⟩
  | .local _ .vmem, ⟨8, _⟩ => ⟨S512x512, .bf16⟩
  | .local _ .vmem, ⟨9, _⟩ => ⟨S512, .f32⟩
  | .local _ .vmem, ⟨10, _⟩ => ⟨S512x512, .f32⟩
  | .local _ .vmem, ⟨11, _⟩ => ⟨S512x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  concatenates_S1024x512_S1024x512_S1024x512_S1024x1536_d1 : Shape.Concatenates [S1024x512, S1024x512, S1024x512] S1024x1536 1
  bitsLt_bf16_f32 : FTy.bits .bf16 < FTy.bits .f32
  concatenates_S512_S512_S512_S1536_d0 : Shape.Concatenates [S512, S512, S512] S1536 0
  concatenates_S512x512_S512x512_S512x1024_d1 : Shape.Concatenates [S512x512, S512x512] S512x1024 1
  concatenates_S512_S512_S1024_d0 : Shape.Concatenates [S512, S512] S1024 0
  inb_S512x1024_S512x1024_0_0 : ∀ a, (![0, 0] : Fin 2 → Nat) a + S512x1024.size a ≤ S512x1024.size a
  h_S512x1024 : 0 < S512x1024.numel
  inb_S512x512_S512x512_0_0 : ∀ a, (![0, 0] : Fin 2 → Nat) a + S512x512.size a ≤ S512x512.size a
  h_S512x512 : 0 < S512x512.numel
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S1536_S1536_0 : ∀ a, (![0] : Fin 1 → Nat) a + S1536.size a ≤ S1536.size a
  h_S1536 : 0 < S1536.numel
  shapeCasts_S1536_S1536 : S1536.ShapeCasts S1536
  shapeCasts_S512x1024_S512x1024 : S512x1024.ShapeCasts S512x1024
  inb_S1024_S1024_0 : ∀ a, (![0] : Fin 1 → Nat) a + S1024.size a ≤ S1024.size a
  h_S1024 : 0 < S1024.numel
  shapeCasts_S1024_S1024 : S1024.ShapeCasts S1024
  shapeCasts_S512x512_S512x512 : S512x512.ShapeCasts S512x512
  inb_S512_S512_0 : ∀ a, (![0] : Fin 1 → Nat) a + S512.size a ≤ S512.size a
  h_S512 : 0 < S512.numel
  shapeCasts_S1536_S1x1536 : S1536.ShapeCasts S1x1536
  broadcasts_S1x1536_S512x1536 : S1x1536.Broadcasts S512x1536
  shapeCasts_S1024_S1x1024 : S1024.ShapeCasts S1x1024
  broadcasts_S1x1024_S512x1024 : S1x1024.Broadcasts S512x1024
  slices_S512x1536_o0_0_S512x512 : S512x1536.Slices ![0, 0] S512x512
  slices_S512x1536_o0_512_S512x512 : S512x1536.Slices ![0, 512] S512x512
  slices_S512x1536_o0_1024_S512x512 : S512x1536.Slices ![0, 1024] S512x512
  slices_S512x1024_o0_0_S512x512 : S512x1024.Slices ![0, 0] S512x512
  slices_S512x1024_o0_512_S512x512 : S512x1024.Slices ![0, 512] S512x512
  shapeCasts_S512_S1x512 : S512.ShapeCasts S1x512
  broadcasts_S1x512_S512x512 : S1x512.Broadcasts S512x512
  dot_S512x1024_S1024x1536_S512x1536_1_0_0_1_n_n_wf : DotDims.WF S512x1024 S1024x1536 S512x1536 [1] [0] [0] [1] [] []
  dot_S512x512_S512x1024_S512x1024_1_0_0_1_n_n_wf : DotDims.WF S512x512 S512x1024 S512x1024 [1] [0] [0] [1] [] []
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S32768x512.size a
  hwx0_1 : ∀ i : grid0.Coords, EltTy.bits .f32 = 32 ∨ (Rect.block (s := S32768x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1536.size a ≤ S1024x1536.size a
  hwx0_2 : ∀ i : grid0.Coords, EltTy.bits .bf16 = 32 ∨ (Rect.block (s := S1024x1536) S1024x1536.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1536.size a ≤ S1536.size a
  hwx0_3 : ∀ i : grid0.Coords, EltTy.bits .f32 = 32 ∨ (Rect.block (s := S1536) S1536.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S512x512.size a
  hwx0_6 : ∀ i : grid0.Coords, EltTy.bits .bf16 = 32 ∨ (Rect.block (s := S512x512) S512x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512.size a ≤ S512.size a
  hwx0_7 : ∀ i : grid0.Coords, EltTy.bits .f32 = 32 ∨ (Rect.block (s := S512) S512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x512.size a ≤ S32768x512.size a
  hwx0_8 : ∀ i : grid0.Coords, EltTy.bits .f32 = 32 ∨ (Rect.block (s := S32768x512) S512x512.size (cc0_transform_8 i) (hinb0_8 i)).WholeWords (EltTy.packing .f32)

variable [Facts₀]

def dot_S512x1024_S1024x1536_S512x1536_1_0_0_1_n_n : DotDims S512x1024 S1024x1536 S512x1536 where
  lhsContracting := [1]
  rhsContracting := [0]
  lhsNonContracting := [0]
  rhsNonContracting := [1]
  lhsBatch := []
  rhsBatch := []
  wf := dot_S512x1024_S1024x1536_S512x1536_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1536.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1536.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S512x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg13) S512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S512x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768x512 : Shape := ⟨2, ![32768, 512]⟩
abbrev S1024x512 : Shape := ⟨2, ![1024, 512]⟩
abbrev S512 : Shape := ⟨1, ![512]⟩
abbrev S512x512 : Shape := ⟨2, ![512, 512]⟩
abbrev S1024x1536 : Shape := ⟨2, ![1024, 1536]⟩
abbrev S1536 : Shape := ⟨1, ![1536]⟩
abbrev S512x1024 : Shape := ⟨2, ![512, 1024]⟩
abbrev S1024 : Shape := ⟨1, ![1024]⟩
abbrev S32768x1536 : Shape := ⟨2, ![32768, 1536]⟩
abbrev S1x1536 : Shape := ⟨2, ![1, 1536]⟩
abbrev S1x1024 : Shape := ⟨2, ![1, 1024]⟩
abbrev S_ : Shape := ⟨0, ![]⟩
abbrev S1x512 : Shape := ⟨2, ![1, 512]⟩

abbrev nBuf : Space → Nat
  | .hbm => 62
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .f32⟩
  | .hbm, ⟨2, _⟩ => ⟨S1024x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S1024x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S1024x512, .f32⟩
  | .hbm, ⟨11, _⟩ => ⟨S512, .f32⟩
  | .hbm, ⟨12, _⟩ => ⟨S512x512, .f32⟩
  | .hbm, ⟨13, _⟩ => ⟨S512, .f32⟩
  | .hbm, ⟨14, _⟩ => ⟨S1024x1536, .f32⟩
  | .hbm, ⟨15, _⟩ => ⟨S1536, .f32⟩
  | .hbm, ⟨16, _⟩ => ⟨S512x1024, .f32⟩
  | .hbm, ⟨17, _⟩ => ⟨S1024, .f32⟩
  | .hbm, ⟨18, _⟩ => ⟨S32768x1536, .f32⟩
  | .hbm, ⟨19, _⟩ => ⟨S1x1536, .f32⟩
  | .hbm, ⟨20, _⟩ => ⟨S32768x1536, .f32⟩
  | .hbm, ⟨21, _⟩ => ⟨S32768x1536, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x512, .f32⟩
  | .hbm, ⟨31, _⟩ => ⟨S32768x512, .f32⟩
  | .hbm, ⟨32, _⟩ => ⟨S32768x512, .f32⟩
  | .hbm, ⟨33, _⟩ => ⟨S32768x512, .f32⟩
  | .hbm, ⟨34, _⟩ => ⟨S_, .f32⟩
  | .hbm, ⟨35, _⟩ => ⟨S32768x512, .f32⟩
  | .hbm, ⟨36, _⟩ => ⟨S32768x512, .f32⟩
  | .hbm, ⟨37, _⟩ => ⟨S_, .f32⟩
  | .hbm, ⟨38, _⟩ => ⟨S32768x512, .f32⟩
  | .hbm, ⟨39, _⟩ => ⟨S32768x512, .f32⟩
  | .hbm, ⟨40, _⟩ => ⟨S32768x512, .f32⟩
  | .hbm, ⟨41, _⟩ => ⟨S32768x512, .f32⟩
  | .hbm, ⟨42, _⟩ => ⟨S32768x512, .f32⟩
  | .hbm, ⟨43, _⟩ => ⟨S_, .f32⟩
  | .hbm, ⟨44, _⟩ => ⟨S32768x512, .f32⟩
  | .hbm, ⟨45, _⟩ => ⟨S32768x512, .f32⟩
  | .hbm, ⟨46, _⟩ => ⟨S_, .f32⟩
  | .hbm, ⟨47, _⟩ => ⟨S32768x512, .f32⟩
  | .hbm, ⟨48, _⟩ => ⟨S32768x512, .f32⟩
  | .hbm, ⟨49, _⟩ => ⟨S32768x512, .f32⟩
  | .hbm, ⟨50, _⟩ => ⟨S32768x512, .f32⟩
  | .hbm, ⟨51, _⟩ => ⟨S32768x512, .f32⟩
  | .hbm, ⟨52, _⟩ => ⟨S1x512, .f32⟩
  | .hbm, ⟨53, _⟩ => ⟨S32768x512, .f32⟩
  | .hbm, ⟨54, _⟩ => ⟨S32768x512, .f32⟩
  | .hbm, ⟨55, _⟩ => ⟨S32768x512, .f32⟩
  | .hbm, ⟨56, _⟩ => ⟨S32768x512, .f32⟩
  | .hbm, ⟨57, _⟩ => ⟨S_, .f32⟩
  | .hbm, ⟨58, _⟩ => ⟨S32768x512, .f32⟩
  | .hbm, ⟨59, _⟩ => ⟨S32768x512, .f32⟩
  | .hbm, ⟨60, _⟩ => ⟨S32768x512, .f32⟩
  | .hbm, ⟨61, _⟩ => ⟨S32768x512, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst : Ref sig .tc := ⟨.hbm, 34, rfl⟩
abbrev main_v20 : Ref sig .tc := ⟨.hbm, 35, rfl⟩
abbrev main_v21 : Ref sig .tc := ⟨.hbm, 36, rfl⟩
abbrev main_cst_0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_v28 : Ref sig .tc := ⟨.hbm, 45, rfl⟩
abbrev main_cst_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩

abbrev nD : Nat := 1
abbrev τ : Topo := Topo.v7x

variable {F : FTy → Type} [FloatOps F]

class Facts₀ : Prop where
  concatenates_S1024x512_S1024x512_S1024x512_S1024x1536_d1 : Shape.Concatenates [S1024x512, S1024x512, S1024x512] S1024x1536 1
  concatenates_S512_S512_S512_S1536_d0 : Shape.Concatenates [S512, S512, S512] S1536 0
  concatenates_S512x512_S512x512_S512x1024_d1 : Shape.Concatenates [S512x512, S512x512] S512x1024 1
  concatenates_S512_S512_S1024_d0 : Shape.Concatenates [S512, S512] S1024 0
  bcast_S1536_S1x1536_1 : S1536.BroadcastsInDim S1x1536 (![1] : Fin 1 → Fin S1x1536.rank)
  bcast_S1x1536_S32768x1536_0_1 : S1x1536.BroadcastsInDim S32768x1536 (![0, 1] : Fin 2 → Fin S32768x1536.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1536_S32768x512_0_0 : S32768x1536.Slices ![0, 0] S32768x512
  slices_S32768x1536_S32768x512_0_512 : S32768x1536.Slices ![0, 512] S32768x512
  slices_S32768x1536_S32768x512_0_1024 : S32768x1536.Slices ![0, 1024] S32768x512
  slices_S32768x1024_S32768x512_0_0 : S32768x1024.Slices ![0, 0] S32768x512
  slices_S32768x1024_S32768x512_0_512 : S32768x1024.Slices ![0, 512] S32768x512
  bcast_S_S32768x512 : S_.BroadcastsInDim S32768x512 (![] : Fin 0 → Fin S32768x512.rank)
  bcast_S512_S1x512_1 : S512.BroadcastsInDim S1x512 (![1] : Fin 1 → Fin S1x512.rank)
  bcast_S1x512_S32768x512_0_1 : S1x512.BroadcastsInDim S32768x512 (![0, 1] : Fin 2 → Fin S32768x512.rank)
  dot_S32768x1024_S1024x1536_S32768x1536_1_0_0_1_n_n_wf : DotDims.WF S32768x1024 S1024x1536 S32768x1536 [1] [0] [0] [1] [] []
  dot_S32768x512_S512x1024_S32768x1024_1_0_0_1_n_n_wf : DotDims.WF S32768x512 S512x1024 S32768x1024 [1] [0] [0] [1] [] []
  dot_S32768x512_S512x512_S32768x512_1_0_0_1_n_n_wf : DotDims.WF S32768x512 S512x512 S32768x512 [1] [0] [0] [1] [] []

variable [Facts₀]

def dot_S32768x1024_S1024x1536_S32768x1536_1_0_0_1_n_n : DotDims S32768x1024 S1024x1536 S32768x1536 where
  lhsContracting := [1]
  rhsContracting := [0]
  lhsNonContracting := [0]
  rhsNonContracting := [1]
  lhsBatch := []
  rhsBatch := []
  wf := dot_S32768x1024_S1024x1536_S32768x1536_1_0_0_1_n_n_wf
def dot_S32768x512_S512x1024_S32768x1024_1_0_0_1_n_n : DotDims S32768x512 S512x1024 S32768x1024 where
  lhsContracting := [1]
  rhsContracting := [0]
  lhsNonContracting := [0]
  rhsNonContracting := [1]
  lhsBatch := []
  rhsBatch := []
  wf := dot_S32768x512_S512x1024_S32768x1024_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf

class Facts : Prop extends Facts₀ where

variable [Facts]
-- ==== Proof.KernelFrame.lean ====
/-
  The frame of the fused gated-recurrent-unit step: the host lines that join the three input-projection
  matrices (and the two recurrent ones, and their bias vectors) side by side and change their format, then
  ONE pipelined call over 64 row blocks of 512 rows.  Every window but the output is only read: the two
  row-blocked operands (the input rows and the previous state) are fetched at every point, the six weight
  and bias windows once, and the output block is written whole at every point.  So the body's triple is:
  from the eight input blocks as found, the output buffer ends at ONE store of the gated combination
  z·h + (1 − z)·tanh(…) of those blocks, the inputs as they were; the run is the library's frame run over
  that proof data, and the argument arrays end unchanged because no host line and no write-back touches one.
-/
import proofs.«136520_j56487409877294_1_alg».proof.Proof.Gen.Kernel.Launch
import proofs.«136520_j56487409877294_1_alg».proof.Proof.Gen.Kernel.Skeleton
import proofs.«136520_j56487409877294_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- The buffers as the call finds them: the launch contents after the seven host lines (three joins of
    matrices or vectors side by side, three changes of format, one more join). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not: where it is not fetched
    its block index has not moved since the point that fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: a staged argument is an input window's array, which the run leaves
    as found; an unstaged one is outside every window; and no host line writes either kind. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 7).trans (((dats 0 c).arrAt_in 7 rfl _).trans ((hA c 7).trans (V_main_arg13 m c)))⟩) h

/-! ## The body's accesses: every load and the one store take a whole buffer -/

abbrev rA : Rect S512x1024 := Rect.unit (s := S512x1024) ![0, 0] S512x1024.size Facts₀.inb_S512x1024_S512x1024_0_0
abbrev rB : Rect S512x512 := Rect.unit (s := S512x512) ![0, 0] S512x512.size Facts₀.inb_S512x512_S512x512_0_0
abbrev rC : Rect S1024x1536 := Rect.unit (s := S1024x1536) ![0, 0] S1024x1536.size Facts₀.inb_S1024x1536_S1024x1536_0_0
abbrev rD : Rect S1536 := Rect.unit (s := S1536) ![0] S1536.size Facts₀.inb_S1536_S1536_0
abbrev rE : Rect S1024 := Rect.unit (s := S1024) ![0] S1024.size Facts₀.inb_S1024_S1024_0
abbrev rG : Rect S512 := Rect.unit (s := S512) ![0] S512.size Facts₀.inb_S512_S512_0

/-! ## What the body leaves in the output window's buffer -/

/-- The output buffer after the body, from the eight input blocks: its one store, of
    z·h + (1 − z)·h̃ with z the update gate, h the previous state's block and h̃ the candidate. -/
def out0_8 (x0 : Vec F S512x1024 .f32) (x1 : Vec F S512x512 .f32) (x2 : Vec F S1024x1536 .bf16) (x3 : Vec F S1536 .f32) (x4 : Vec F S512x1024 .bf16) (x5 : Vec F S1024 .f32) (x6 : Vec F S512x512 .bf16) (x7 : Vec F S512 .f32) : Vec F S512x512 .f32 :=
  View.canon [⟨rB, k0_pay1 (k0_pay4 (View.ld x0 rA) (View.ld x1 rB) (View.ld x2 rC) (View.ld x3 rD) (View.ld x4 rA) (View.ld x5 rE)) (k0_pay5 (View.ld x0 rA) (View.ld x1 rB) (View.ld x2 rC) (View.ld x3 rD) (View.ld x4 rA) (View.ld x5 rE) (View.ld x6 rB) (View.ld x7 rG)) (k0_pay6 (View.ld x0 rA) (View.ld x1 rB) (View.ld x2 rC) (View.ld x3 rD) (View.ld x4 rA) (View.ld x5 rE)) (k0_pay7 (F := F))⟩]

/-- The one store covers the buffer. -/
theorem cover0_8 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- On whole buffers, the inputs' at contents `xW` and the output's at anything, the body runs to the
    continuation with the inputs' as they were and the output's at `out0_8` of the inputs'. -/
theorem sound_kernel (c : Dev nD) (E : Set ℕ) (i : grid0.Coords) (arg0 : Memref sig .tc .vmem S512x1024 .f32) (harg0 : arg0.IsWhole) (arg1 : Memref sig .tc .vmem S512x512 .f32) (harg1 : arg1.IsWhole) (arg2 : Memref sig .tc .vmem S1024x1536 .bf16) (harg2 : arg2.IsWhole) (arg3 : Memref sig .tc .vmem S1536 .f32) (harg3 : arg3.IsWhole) (arg4 : Memref sig .tc .vmem S512x1024 .bf16) (harg4 : arg4.IsWhole) (arg5 : Memref sig .tc .vmem S1024 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .f32) (harg8 : arg8.IsWhole)
    (x0 : Vec F S512x1024 .f32) (x1 : Vec F S512x512 .f32) (x2 : Vec F S1024x1536 .bf16) (x3 : Vec F S1536 .f32) (x4 : Vec F S512x1024 .bf16) (x5 : Vec F S1024 .f32) (x6 : Vec F S512x512 .bf16) (x7 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0__gru_kernel i arg0 harg0 arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The arrays as the call finds them; after the body at point `t` each input's buffer at its block and the
    output's at `out0_8` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with the
    output array at what the write-backs leave and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.Kernel.Frame

end
-- ==== Proof.KernelIdealFrame.lean ====
/-
  The frame of the fused gated-recurrent-unit step: the host lines that join the three input-projection
  matrices (and the two recurrent ones, and their bias vectors) side by side and change their format, then
  ONE pipelined call over 64 row blocks of 512 rows.  Every window but the output is only read: the two
  row-blocked operands (the input rows and the previous state) are fetched at every point, the six weight
  and bias windows once, and the output block is written whole at every point.  So the body's triple is:
  from the eight input blocks as found, the output buffer ends at ONE store of the gated combination
  z·h + (1 − z)·tanh(…) of those blocks, the inputs as they were; the run is the library's frame run over
  that proof data, and the argument arrays end unchanged because no host line and no write-back touches one.
-/
import proofs.«136520_j56487409877294_1_alg».proof.Proof.Gen.KernelIdeal.Launch
import proofs.«136520_j56487409877294_1_alg».proof.Proof.Gen.KernelIdeal.Skeleton
import proofs.«136520_j56487409877294_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the call -/

/-- The buffers as the call finds them: the launch contents after the seven host lines (three joins of
    matrices or vectors side by side, three changes of format, one more join). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host lines, then the call. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host line before the call writes argument 0: the call finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 1: the call finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 2: the call finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 3: the call finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 4: the call finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 5: the call finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 6: the call finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 7: the call finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 8: the call finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 9: the call finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 10: the call finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 11: the call finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 12: the call finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))
/-- No host line before the call writes argument 13: the call finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.nary_writes, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds its block at every point, fetched there or not: where it is not fetched
    its block index has not moved since the point that fetched it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The argument arrays end as launched: a staged argument is an input window's array, which the run leaves
    as found; an unstaged one is outside every window; and no host line writes either kind. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 7).trans (((dats 0 c).arrAt_in 7 rfl _).trans ((hA c 7).trans (V_main_arg13 m c)))⟩) h

/-! ## The body's accesses: every load and the one store take a whole buffer -/

abbrev rA : Rect S512x1024 := Rect.unit (s := S512x1024) ![0, 0] S512x1024.size Facts₀.inb_S512x1024_S512x1024_0_0
abbrev rB : Rect S512x512 := Rect.unit (s := S512x512) ![0, 0] S512x512.size Facts₀.inb_S512x512_S512x512_0_0
abbrev rC : Rect S1024x1536 := Rect.unit (s := S1024x1536) ![0, 0] S1024x1536.size Facts₀.inb_S1024x1536_S1024x1536_0_0
abbrev rD : Rect S1536 := Rect.unit (s := S1536) ![0] S1536.size Facts₀.inb_S1536_S1536_0
abbrev rE : Rect S1024 := Rect.unit (s := S1024) ![0] S1024.size Facts₀.inb_S1024_S1024_0
abbrev rG : Rect S512 := Rect.unit (s := S512) ![0] S512.size Facts₀.inb_S512_S512_0

/-! ## What the body leaves in the output window's buffer -/

/-- The output buffer after the body, from the eight input blocks: its one store, of
    z·h + (1 − z)·h̃ with z the update gate, h the previous state's block and h̃ the candidate. -/
def out0_8 (x0 : Vec F S512x1024 .f32) (x1 : Vec F S512x512 .f32) (x2 : Vec F S1024x1536 .bf16) (x3 : Vec F S1536 .f32) (x4 : Vec F S512x1024 .bf16) (x5 : Vec F S1024 .f32) (x6 : Vec F S512x512 .bf16) (x7 : Vec F S512 .f32) : Vec F S512x512 .f32 :=
  View.canon [⟨rB, k0_pay1 (k0_pay4 (View.ld x0 rA) (View.ld x1 rB) (View.ld x2 rC) (View.ld x3 rD) (View.ld x4 rA) (View.ld x5 rE)) (k0_pay5 (View.ld x0 rA) (View.ld x1 rB) (View.ld x2 rC) (View.ld x3 rD) (View.ld x4 rA) (View.ld x5 rE) (View.ld x6 rB) (View.ld x7 rG)) (k0_pay6 (View.ld x0 rA) (View.ld x1 rB) (View.ld x2 rC) (View.ld x3 rD) (View.ld x4 rA) (View.ld x5 rE)) (k0_pay7 (F := F))⟩]

/-- The one store covers the buffer. -/
theorem cover0_8 (p0 : Vec F S512x512 .f32) (y : S512x512.Idx) :
    ∃ pc ∈ ([⟨rB, p0⟩] : List (View.Piece (Elt F) S512x512 .f32)), y ∈ pc.1.set :=
  View.cover_of_tiled [⟨rB, p0⟩] S512x512.size (by rfl) y

/-! ## The body's triple -/

set_option maxHeartbeats 4000000 in
/-- On whole buffers, the inputs' at contents `xW` and the output's at anything, the body runs to the
    continuation with the inputs' as they were and the output's at `out0_8` of the inputs'. -/
theorem sound_kernel (c : Dev nD) (E : Set ℕ) (i : grid0.Coords) (arg0 : Memref sig .tc .vmem S512x1024 .f32) (harg0 : arg0.IsWhole) (arg1 : Memref sig .tc .vmem S512x512 .f32) (harg1 : arg1.IsWhole) (arg2 : Memref sig .tc .vmem S1024x1536 .bf16) (harg2 : arg2.IsWhole) (arg3 : Memref sig .tc .vmem S1536 .f32) (harg3 : arg3.IsWhole) (arg4 : Memref sig .tc .vmem S512x1024 .bf16) (harg4 : arg4.IsWhole) (arg5 : Memref sig .tc .vmem S1024 .f32) (harg5 : arg5.IsWhole) (arg6 : Memref sig .tc .vmem S512x512 .bf16) (harg6 : arg6.IsWhole) (arg7 : Memref sig .tc .vmem S512 .f32) (harg7 : arg7.IsWhole) (arg8 : Memref sig .tc .vmem S512x512 .f32) (harg8 : arg8.IsWhole)
    (x0 : Vec F S512x1024 .f32) (x1 : Vec F S512x512 .f32) (x2 : Vec F S1024x1536 .bf16) (x3 : Vec F S1536 .f32) (x4 : Vec F S512x1024 .bf16) (x5 : Vec F S1024 .f32) (x6 : Vec F S512x512 .bf16) (x7 : Vec F S512 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out0_8 x0 x1 x2 x3 x4 x5 x6 x7)) -∗ K ⟨⟩))
      ⊢ wp frame (wpE (defs₀ (F := F)) Variants.none c none) E (cc0__gru_kernel i arg0 harg0 arg1 harg1 arg2 harg2 arg3 harg3 arg4 harg4 arg5 harg5 arg6 harg6 arg7 harg7 arg8 harg8) K := by
  simp only [cc0__gru_kernel_eq_skeleton]; unfold cc0__gru_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (cover0_8 _)

/-! ## The pipeline's proof data -/

/-- The arrays as the call finds them; after the body at point `t` each input's buffer at its block and the
    output's at `out0_8` of the input blocks; nothing else owned, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => out0_8 (iblk m c 0 t) (iblk m c 1 t) (iblk m c 2 t) (iblk m c 3 t) (iblk m c 4 t) (iblk m c 5 t) (iblk m c 6 t) (iblk m c 7 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = out0_8 (iblk m c 0 t) (iblk m c 1 t) (iblk m c 2 t) (iblk m c 3 t) (iblk m c 4 t) (iblk m c 5 t) (iblk m c 6 t) (iblk m c 7 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1000000 in
/-- The body at any point: the inputs' buffers hold their blocks, so the triple applies; the invariant and the
    core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, with the
    output array at what the write-backs leave and every other unscoped buffer as the call found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end and its fourteen argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Frame

end
-- ==== Proof.GruSpec.lean ====
/-
  One step of a gated recurrent unit, entry by entry, on the extended reals.

  For one batch row with input row `x` (1024 entries) and previous state row `h` (512 entries), and the
  weights joined side by side — `W` (1024 × 1536) with bias `bW`: the update, reset and candidate columns in
  that order; `U` (512 × 1024) with bias `bU`: the update and reset columns — and the candidate's recurrent
  matrix `Uh` with bias `buh`:

    z  = σ((x·W + bW)[q]        + (h·U + bU)[q])
    rₖ = σ((x·W + bW)[512 + k]  + (h·U + bU)[512 + k])
    h̃  = tanh(((x·W + bW)[1024 + q] + Σₖ (rₖ · hₖ) · Uh[k, q]) + buh[q])
    out = z · h[q] + (1 − z) · h̃

  with σ the logistic function.  Both programs compute exactly this expression, sums and products in this order,
  so no law of arithmetic is needed to join them.
-/
import Idealize.ShloMosaic.PureOps.Ideal
import Idealize.ShloMosaic.Lib.ValueIdx
import Idealize.ShloMosaic.Lib.IdealHost

noncomputable section

namespace Cert.GruSpec

open Idealize.ShloMosaic Idealize.ShloMosaic.ValueIdx

/-- The update-gate column of output column `q` in the 1536 joined input-projection columns. -/
abbrev colZ (q : Fin 512) : Fin 1536 := ⟨q.val, by omega⟩
/-- The reset-gate column. -/
abbrev colR (q : Fin 512) : Fin 1536 := ⟨512 + q.val, by omega⟩
/-- The candidate column. -/
abbrev colH (q : Fin 512) : Fin 1536 := ⟨1024 + q.val, by omega⟩
/-- The update-gate column in the 1024 joined recurrent columns. -/
abbrev colZ' (q : Fin 512) : Fin 1024 := ⟨q.val, by omega⟩
/-- The reset-gate column there. -/
abbrev colR' (q : Fin 512) : Fin 1024 := ⟨512 + q.val, by omega⟩

/-- The float word of 1.0, as both programs spell it. -/
abbrev one : EReal := Ideal.ofBits .f32 0x3F800000#32

/-- Column `j` of `x·W + bW` for one row `x`. -/
def proj (x : Fin 1024 → EReal) (W : (⟨2, ![1024, 1536]⟩ : Shape).Idx → EReal) (bW : (⟨1, ![1536]⟩ : Shape).Idx → EReal)
    (j : Fin 1536) : EReal :=
  (∑ k : Fin 1024, x k * W (ix2 k j)) + bW (ix1 j)

/-- Column `j` of `h·U + bU` for one row `h`. -/
def recur (h : Fin 512 → EReal) (U : (⟨2, ![512, 1024]⟩ : Shape).Idx → EReal) (bU : (⟨1, ![1024]⟩ : Shape).Idx → EReal)
    (j : Fin 1024) : EReal :=
  (∑ k : Fin 512, h k * U (ix2 k j)) + bU (ix1 j)

/-- Entry `q` of the new state of one row. -/
def entry (x : Fin 1024 → EReal) (h : Fin 512 → EReal)
    (W : (⟨2, ![1024, 1536]⟩ : Shape).Idx → EReal) (bW : (⟨1, ![1536]⟩ : Shape).Idx → EReal)
    (U : (⟨2, ![512, 1024]⟩ : Shape).Idx → EReal) (bU : (⟨1, ![1024]⟩ : Shape).Idx → EReal)
    (Uh : (⟨2, ![512, 512]⟩ : Shape).Idx → EReal) (buh : (⟨1, ![512]⟩ : Shape).Idx → EReal) (q : Fin 512) : EReal :=
  Ideal.logistic (proj x W bW (colZ q) + recur h U bU (colZ' q)) * h q
    + (one - Ideal.logistic (proj x W bW (colZ q) + recur h U bU (colZ' q)))
      * Ideal.tanh ((proj x W bW (colH q)
          + ∑ k : Fin 512, (Ideal.logistic (proj x W bW (colR k) + recur h U bU (colR' k)) * h k) * Uh (ix2 k q))
        + buh (ix1 q))

/-- The new state of a batch of any number of rows: row `i` from row `i` of the inputs. -/
def state {R : Nat} (X : (⟨2, ![R, 1024]⟩ : Shape).Idx → EReal) (H : (⟨2, ![R, 512]⟩ : Shape).Idx → EReal)
    (W : (⟨2, ![1024, 1536]⟩ : Shape).Idx → EReal) (bW : (⟨1, ![1536]⟩ : Shape).Idx → EReal)
    (U : (⟨2, ![512, 1024]⟩ : Shape).Idx → EReal) (bU : (⟨1, ![1024]⟩ : Shape).Idx → EReal)
    (Uh : (⟨2, ![512, 512]⟩ : Shape).Idx → EReal) (buh : (⟨1, ![512]⟩ : Shape).Idx → EReal) :
    (⟨2, ![R, 512]⟩ : Shape).Idx → EReal :=
  fun i => entry (fun k => X (ix2 (i 0) k)) (fun k => H (ix2 (i 0) k)) W bW U bU Uh buh (i 1)

end Cert.GruSpec

end
-- ==== Proof.KernelIdealEntry.lean ====
/-
  The body's one store, read at row `p` and column `q` of the block: the gated-recurrent-unit entry of the
  specification, computed from row `p` of the two row-blocked inputs and from the whole weight windows.
  The three matrix products go into zero accumulators, so each is a plain sum over the shared coordinate;
  a bias vector is laid as one row and repeated down the rows, so it contributes its entry at the column;
  the gates' pre-activations are column ranges [0,512), [512,1024), [1024,1536) of the joined products.
-/
import proofs.«136520_j56487409877294_1_alg».proof.Proof.KernelIdealFrame
import proofs.«136520_j56487409877294_1_alg».proof.Proof.GruSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Entry

open Cert.KernelIdeal Cert.KernelIdeal.Gen Cert.KernelIdeal.Frame Cert.GruSpec
open Idealize.ShloMosaic Idealize.ShloMosaic.TcCoe Idealize.ShloMosaic.ValueIdx Idealize.SL.Sem

theorem hz2 : (![0, 0] : Fin 2 → Nat) = fun _ => 0 := funext fun a => by fin_cases a <;> rfl
theorem hz1 : (![0] : Fin 1 → Nat) = fun _ => 0 := funext fun a => by fin_cases a <;> rfl

/-! ## The matrix products at an entry -/

theorem mmW_l0 (i : S512x1536.Idx) (q : dot_S512x1024_S1024x1536_S512x1536_1_0_0_1_n_n.contr.Idx) : (dot_S512x1024_S1024x1536_S512x1536_1_0_0_1_n_n.lhsIdx i q 0).val = (i 0).val := by
  unfold DotDims.lhsIdx
  rw [dif_neg (show ¬(0 : Fin S512x1024.rank) ∈ dot_S512x1024_S1024x1536_S512x1536_1_0_0_1_n_n.lhsBatch by decide), dif_pos (show (0 : Fin S512x1024.rank) ∈ dot_S512x1024_S1024x1536_S512x1536_1_0_0_1_n_n.lhsNonContracting by decide)]
  rfl
theorem mmW_r1 (i : S512x1536.Idx) (q : dot_S512x1024_S1024x1536_S512x1536_1_0_0_1_n_n.contr.Idx) : (dot_S512x1024_S1024x1536_S512x1536_1_0_0_1_n_n.rhsIdx i q 1).val = (i 1).val := by
  unfold DotDims.rhsIdx
  rw [dif_neg (show ¬(1 : Fin S1024x1536.rank) ∈ dot_S512x1024_S1024x1536_S512x1536_1_0_0_1_n_n.rhsBatch by decide), dif_pos (show (1 : Fin S1024x1536.rank) ∈ dot_S512x1024_S1024x1536_S512x1536_1_0_0_1_n_n.rhsNonContracting by decide)]
  rfl
/-- A 512 × 1024 by 1024 × 1536 product into a zero accumulator, at row `p` and column `j`, is the sum over the 1024 shared
    coordinates of the products of the row's and the column's entries. -/
theorem mmW {φ₁ φ₂ : FTy} (l : FVec Ideal S512x1024 φ₁) (r : FVec Ideal S1024x1536 φ₂) (p : Fin 512) (j : Fin 1536) :
    matmul dot_S512x1024_S1024x1536_S512x1536_1_0_0_1_n_n none l r (constant S512x1536 .f32 0x00000000#32) (ix2 p j) = ∑ k : Fin 1024, l (ix2 p k) * r (ix2 k j) := by
  simp only [matmul]
  rw [Ideal.matmul_constant_zero_apply, ← Equiv.sum_comp (ValueIdx.contrEquiv1 dot_S512x1024_S1024x1536_S512x1536_1_0_0_1_n_n 1024 rfl rfl).symm]
  refine Finset.sum_congr rfl fun k _ => ?_
  have hk := ValueIdx.contrEquiv1_symm_val dot_S512x1024_S1024x1536_S512x1536_1_0_0_1_n_n 1024 rfl rfl k
  have el : dot_S512x1024_S1024x1536_S512x1536_1_0_0_1_n_n.lhsIdx (ix2 p j) ((ValueIdx.contrEquiv1 dot_S512x1024_S1024x1536_S512x1536_1_0_0_1_n_n 1024 rfl rfl).symm k) = ix2 p k := funext fun a => Fin.ext (by
    match a with
    | ⟨0, _⟩ => exact mmW_l0 _ _
    | ⟨1, _⟩ => exact ((dot_S512x1024_S1024x1536_S512x1536_1_0_0_1_n_n).lhsIdx_val_of_single rfl _ _).trans hk)
  have er : dot_S512x1024_S1024x1536_S512x1536_1_0_0_1_n_n.rhsIdx (ix2 p j) ((ValueIdx.contrEquiv1 dot_S512x1024_S1024x1536_S512x1536_1_0_0_1_n_n 1024 rfl rfl).symm k) = ix2 k j := funext fun a => Fin.ext (by
    match a with
    | ⟨0, _⟩ => exact ((dot_S512x1024_S1024x1536_S512x1536_1_0_0_1_n_n).rhsIdx_val_of_single rfl _ _).trans hk
    | ⟨1, _⟩ => exact mmW_r1 _ _)
  rw [el, er]

theorem mmU_l0 (i : S512x1024.Idx) (q : dot_S512x512_S512x1024_S512x1024_1_0_0_1_n_n.contr.Idx) : (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide), dif_pos (show (0 : Fin S512x512.rank) ∈ dot_S512x512_S512x1024_S512x1024_1_0_0_1_n_n.lhsNonContracting by decide)]
  rfl
theorem mmU_r1 (i : S512x1024.Idx) (q : dot_S512x512_S512x1024_S512x1024_1_0_0_1_n_n.contr.Idx) : (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide), dif_pos (show (1 : Fin S512x1024.rank) ∈ dot_S512x512_S512x1024_S512x1024_1_0_0_1_n_n.rhsNonContracting by decide)]
  rfl
/-- A 512 × 512 by 512 × 1024 product into a zero accumulator, at row `p` and column `j`, is the sum over the 512 shared
    coordinates of the products of the row's and the column's entries. -/
theorem mmU {φ₁ φ₂ : FTy} (l : FVec Ideal S512x512 φ₁) (r : FVec Ideal S512x1024 φ₂) (p : Fin 512) (j : Fin 1024) :
    matmul dot_S512x512_S512x1024_S512x1024_1_0_0_1_n_n none l r (constant S512x1024 .f32 0x00000000#32) (ix2 p j) = ∑ k : Fin 512, l (ix2 p k) * r (ix2 k j) := by
  simp only [matmul]
  rw [Ideal.matmul_constant_zero_apply, ← Equiv.sum_comp (ValueIdx.contrEquiv1 dot_S512x512_S512x1024_S512x1024_1_0_0_1_n_n 512 rfl rfl).symm]
  refine Finset.sum_congr rfl fun k _ => ?_
  have hk := ValueIdx.contrEquiv1_symm_val dot_S512x512_S512x1024_S512x1024_1_0_0_1_n_n 512 rfl rfl k
  have el : dot_S512x512_S512x1024_S512x1024_1_0_0_1_n_n.lhsIdx (ix2 p j) ((ValueIdx.contrEquiv1 dot_S512x512_S512x1024_S512x1024_1_0_0_1_n_n 512 rfl rfl).symm k) = ix2 p k := funext fun a => Fin.ext (by
    match a with
    | ⟨0, _⟩ => exact mmU_l0 _ _
    | ⟨1, _⟩ => exact ((dot_S512x512_S512x1024_S512x1024_1_0_0_1_n_n).lhsIdx_val_of_single rfl _ _).trans hk)
  have er : dot_S512x512_S512x1024_S512x1024_1_0_0_1_n_n.rhsIdx (ix2 p j) ((ValueIdx.contrEquiv1 dot_S512x512_S512x1024_S512x1024_1_0_0_1_n_n 512 rfl rfl).symm k) = ix2 k j := funext fun a => Fin.ext (by
    match a with
    | ⟨0, _⟩ => exact ((dot_S512x512_S512x1024_S512x1024_1_0_0_1_n_n).rhsIdx_val_of_single rfl _ _).trans hk
    | ⟨1, _⟩ => exact mmU_r1 _ _)
  rw [el, er]

theorem mmH_l0 (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem mmH_r1 (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl
/-- A 512 × 512 by 512 × 512 product into a zero accumulator, at row `p` and column `j`, is the sum over the 512 shared
    coordinates of the products of the row's and the column's entries. -/
theorem mmH {φ₁ φ₂ : FTy} (l : FVec Ideal S512x512 φ₁) (r : FVec Ideal S512x512 φ₂) (p : Fin 512) (j : Fin 512) :
    matmul dot_S512x512_S512x512_S512x512_1_0_0_1_n_n none l r (constant S512x512 .f32 0x00000000#32) (ix2 p j) = ∑ k : Fin 512, l (ix2 p k) * r (ix2 k j) := by
  simp only [matmul]
  rw [Ideal.matmul_constant_zero_apply, ← Equiv.sum_comp (ValueIdx.contrEquiv1 dot_S512x512_S512x512_S512x512_1_0_0_1_n_n 512 rfl rfl).symm]
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p j) ((ValueIdx.contrEquiv1 dot_S512x512_S512x512_S512x512_1_0_0_1_n_n 512 rfl rfl).symm k) = ix2 p k := funext fun a => Fin.ext (by
    match a with
    | ⟨0, _⟩ => exact mmH_l0 _ _
    | ⟨1, _⟩ => exact ((dot_S512x512_S512x512_S512x512_1_0_0_1_n_n).lhsIdx_val_of_single rfl _ _).trans hk)
  have er : dot_S512x512_S512x512_S512x512_1_0_0_1_n_n.rhsIdx (ix2 p j) ((ValueIdx.contrEquiv1 dot_S512x512_S512x512_S512x512_1_0_0_1_n_n 512 rfl rfl).symm k) = ix2 k j := funext fun a => Fin.ext (by
    match a with
    | ⟨0, _⟩ => exact ((dot_S512x512_S512x512_S512x512_1_0_0_1_n_n).rhsIdx_val_of_single rfl _ _).trans hk
    | ⟨1, _⟩ => exact mmH_r1 _ _)
  rw [el, er]

/-! ## The bias rows -/

/-- A vector of 1536 entries laid as one row and repeated down 512 rows, read at row `p`, column `j`: entry `j`. -/
theorem bias_1536 (v : FVec Ideal S1536 .f32) (h1 : S1536.ShapeCasts S1x1536) (h2 : S1x1536.Broadcasts S512x1536) (p : Fin 512) (j : Fin 1536) :
    broadcastTo S512x1536 (shapeCast S1x1536 v h1) h2 (ix2 p j) = v (ix1 j) := by
  rw [broadcastTo_apply _ h2 (ix2 p j) (ix2 (0 : Fin 1) j) (fun a => by
    match a with
    | ⟨0, _⟩ => show (0 : Nat) = if (1 : Nat) = 1 then 0 else _; rw [if_pos rfl]
    | ⟨1, _⟩ => show j.val = if (1536 : Nat) = 1 then 0 else j.val; rw [if_neg (by decide)])]
  exact (shapeCast_addUnit_apply ![1536] v h1 (ix2 (0 : Fin 1) j)).trans (congrArg v (funext fun a => by match a with | ⟨0, _⟩ => rfl))

/-- A vector of 1024 entries laid as one row and repeated down 512 rows, read at row `p`, column `j`: entry `j`. -/
theorem bias_1024 (v : FVec Ideal S1024 .f32) (h1 : S1024.ShapeCasts S1x1024) (h2 : S1x1024.Broadcasts S512x1024) (p : Fin 512) (j : Fin 1024) :
    broadcastTo S512x1024 (shapeCast S1x1024 v h1) h2 (ix2 p j) = v (ix1 j) := by
  rw [broadcastTo_apply _ h2 (ix2 p j) (ix2 (0 : Fin 1) j) (fun a => by
    match a with
    | ⟨0, _⟩ => show (0 : Nat) = if (1 : Nat) = 1 then 0 else _; rw [if_pos rfl]
    | ⟨1, _⟩ => show j.val = if (1024 : Nat) = 1 then 0 else j.val; rw [if_neg (by decide)])]
  exact (shapeCast_addUnit_apply ![1024] v h1 (ix2 (0 : Fin 1) j)).trans (congrArg v (funext fun a => by match a with | ⟨0, _⟩ => rfl))

/-- A vector of 512 entries laid as one row and repeated down 512 rows, read at row `p`, column `j`: entry `j`. -/
theorem bias_512 (v : FVec Ideal S512 .f32) (h1 : S512.ShapeCasts S1x512) (h2 : S1x512.Broadcasts S512x512) (p : Fin 512) (j : Fin 512) :
    broadcastTo S512x512 (shapeCast S1x512 v h1) h2 (ix2 p j) = v (ix1 j) := by
  rw [broadcastTo_apply _ h2 (ix2 p j) (ix2 (0 : Fin 1) j) (fun a => by
    match a with
    | ⟨0, _⟩ => show (0 : Nat) = if (1 : Nat) = 1 then 0 else _; rw [if_pos rfl]
    | ⟨1, _⟩ => show j.val = if (512 : Nat) = 1 then 0 else j.val; rw [if_neg (by decide)])]
  exact (shapeCast_addUnit_apply ![512] v h1 (ix2 (0 : Fin 1) j)).trans (congrArg v (funext fun a => by match a with | ⟨0, _⟩ => rfl))

/-! ## The column ranges -/

theorem sliceZ (X : S512x1536.Idx → EReal) (h : S512x1536.Slices ![0, 0] S512x512) (p q : Fin 512) :
    extractStridedSlice S512x512 ![0, 0] X h (ix2 p q) = X (ix2 p (colZ q)) :=
  extractStridedSlice_apply _ X h (ix2 p q) (ix2 p (colZ q)) (fun a => by
    match a with
    | ⟨0, _⟩ => exact (Nat.zero_add _).symm
    | ⟨1, _⟩ => exact (Nat.zero_add _).symm)

theorem sliceR (X : S512x1536.Idx → EReal) (h : S512x1536.Slices ![0, 512] S512x512) (p q : Fin 512) :
    extractStridedSlice S512x512 ![0, 512] X h (ix2 p q) = X (ix2 p (colR q)) :=
  extractStridedSlice_apply _ X h (ix2 p q) (ix2 p (colR q)) (fun a => by
    match a with
    | ⟨0, _⟩ => exact (Nat.zero_add _).symm
    | ⟨1, _⟩ => rfl)

theorem sliceH (X : S512x1536.Idx → EReal) (h : S512x1536.Slices ![0, 1024] S512x512) (p q : Fin 512) :
    extractStridedSlice S512x512 ![0, 1024] X h (ix2 p q) = X (ix2 p (colH q)) :=
  extractStridedSlice_apply _ X h (ix2 p q) (ix2 p (colH q)) (fun a => by
    match a with
    | ⟨0, _⟩ => exact (Nat.zero_add _).symm
    | ⟨1, _⟩ => rfl)

theorem sliceZ' (X : S512x1024.Idx → EReal) (h : S512x1024.Slices ![0, 0] S512x512) (p q : Fin 512) :
    extractStridedSlice S512x512 ![0, 0] X h (ix2 p q) = X (ix2 p (colZ' q)) :=
  extractStridedSlice_apply _ X h (ix2 p q) (ix2 p (colZ' q)) (fun a => by
    match a with
    | ⟨0, _⟩ => exact (Nat.zero_add _).symm
    | ⟨1, _⟩ => exact (Nat.zero_add _).symm)

theorem sliceR' (X : S512x1024.Idx → EReal) (h : S512x1024.Slices ![0, 512] S512x512) (p q : Fin 512) :
    extractStridedSlice S512x512 ![0, 512] X h (ix2 p q) = X (ix2 p (colR' q)) :=
  extractStridedSlice_apply _ X h (ix2 p q) (ix2 p (colR' q)) (fun a => by
    match a with
    | ⟨0, _⟩ => exact (Nat.zero_add _).symm
    | ⟨1, _⟩ => rfl)

/-! ## The payloads at an entry -/

variable (v0 : Vec Ideal S512x1024 .f32) (v2 : Vec Ideal S512x512 .f32) (v4 : Vec Ideal S1024x1536 .bf16) (v6 : Vec Ideal S1536 .f32)
  (v8 : Vec Ideal S512x1024 .bf16) (v10 : Vec Ideal S1024 .f32) (v12 : Vec Ideal S512x512 .bf16) (v14 : Vec Ideal S512 .f32)

/-- The joined input projection with its bias, at row `p`, column `j`. -/
theorem pay2_apply (p : Fin 512) (j : Fin 1536) :
    k0_pay2 (F := Ideal) v0 v4 v6 (ix2 p j) = proj (fun k => v0 (ix2 p k)) v4 v6 j := by
  unfold k0_pay2 proj
  show matmul (F := Ideal) dot_S512x1024_S1024x1536_S512x1536_1_0_0_1_n_n none (truncf (F := Ideal) .bf16 v0 Facts₀.bitsLt_bf16_f32) (shapeCast S1024x1536 v4 Facts₀.shapeCasts_S1024x1536_S1024x1536) (constant (F := Ideal) S512x1536 .f32 0x00000000#32) (ix2 p j)
      + broadcastTo S512x1536 (shapeCast S1x1536 (shapeCast S1536 v6 Facts₀.shapeCasts_S1536_S1536) Facts₀.shapeCasts_S1536_S1x1536) Facts₀.broadcasts_S1x1536_S512x1536 (ix2 p j) = _
  rw [mmW, bias_1536, shapeCast_self, shapeCast_self]
  rfl

/-- The joined recurrent projection with its bias, at row `p`, column `j`. -/
theorem pay3_apply (p : Fin 512) (j : Fin 1024) :
    k0_pay3 (F := Ideal) v2 v8 v10 (ix2 p j) = recur (fun k => v2 (ix2 p k)) v8 v10 j := by
  unfold k0_pay3 recur
  show matmul (F := Ideal) dot_S512x512_S512x1024_S512x1024_1_0_0_1_n_n none (truncf (F := Ideal) .bf16 v2 Facts₀.bitsLt_bf16_f32) (shapeCast S512x1024 v8 Facts₀.shapeCasts_S512x1024_S512x1024) (constant (F := Ideal) S512x1024 .f32 0x00000000#32) (ix2 p j)
      + broadcastTo S512x1024 (shapeCast S1x1024 (shapeCast S1024 v10 Facts₀.shapeCasts_S1024_S1024) Facts₀.shapeCasts_S1024_S1x1024) Facts₀.broadcasts_S1x1024_S512x1024 (ix2 p j) = _
  rw [mmU, bias_1024, shapeCast_self, shapeCast_self]
  rfl

/-- The update gate. -/
theorem pay4_apply (p q : Fin 512) :
    k0_pay4 (F := Ideal) v0 v2 v4 v6 v8 v10 (ix2 p q)
      = Ideal.logistic (proj (fun k => v0 (ix2 p k)) v4 v6 (colZ q) + recur (fun k => v2 (ix2 p k)) v8 v10 (colZ' q)) := by
  unfold k0_pay4
  show Ideal.logistic (extractStridedSlice S512x512 ![0, 0] (k0_pay2 (F := Ideal) v0 v4 v6) Facts₀.slices_S512x1536_o0_0_S512x512 (ix2 p q)
      + extractStridedSlice S512x512 ![0, 0] (k0_pay3 (F := Ideal) v2 v8 v10) Facts₀.slices_S512x1024_o0_0_S512x512 (ix2 p q)) = _
  rw [sliceZ, sliceZ', pay2_apply, pay3_apply]

/-- The reset gate at row `p`, column `k`, times the previous state there: the left factor of the third product. -/
theorem reset_apply (p k : Fin 512) :
    (truncf .bf16 (mulf (logistic (addf (extractStridedSlice S512x512 ![0, 512] (k0_pay2 (F := Ideal) v0 v4 v6) Facts₀.slices_S512x1536_o0_512_S512x512)
        (extractStridedSlice S512x512 ![0, 512] (k0_pay3 (F := Ideal) v2 v8 v10) Facts₀.slices_S512x1024_o0_512_S512x512))) v2) Facts₀.bitsLt_bf16_f32 : FVec Ideal S512x512 .bf16) (ix2 p k)
      = Ideal.logistic (proj (fun k => v0 (ix2 p k)) v4 v6 (colR k) + recur (fun k => v2 (ix2 p k)) v8 v10 (colR' k)) * v2 (ix2 p k) := by
  show Ideal.logistic (extractStridedSlice S512x512 ![0, 512] (k0_pay2 (F := Ideal) v0 v4 v6) Facts₀.slices_S512x1536_o0_512_S512x512 (ix2 p k)
      + extractStridedSlice S512x512 ![0, 512] (k0_pay3 (F := Ideal) v2 v8 v10) Facts₀.slices_S512x1024_o0_512_S512x512 (ix2 p k)) * v2 (ix2 p k) = _
  rw [sliceR, sliceR', pay2_apply, pay3_apply]

/-- The candidate state. -/
theorem pay5_apply (p q : Fin 512) :
    k0_pay5 (F := Ideal) v0 v2 v4 v6 v8 v10 v12 v14 (ix2 p q)
      = Ideal.tanh ((proj (fun k => v0 (ix2 p k)) v4 v6 (colH q)
          + ∑ k : Fin 512, (Ideal.logistic (proj (fun k => v0 (ix2 p k)) v4 v6 (colR k) + recur (fun k => v2 (ix2 p k)) v8 v10 (colR' k)) * v2 (ix2 p k)) * v12 (ix2 k q))
        + v14 (ix1 q)) := by
  unfold k0_pay5
  show Ideal.tanh ((extractStridedSlice S512x512 ![0, 1024] (k0_pay2 (F := Ideal) v0 v4 v6) Facts₀.slices_S512x1536_o0_1024_S512x512 (ix2 p q)
      + matmul dot_S512x512_S512x512_S512x512_1_0_0_1_n_n none
          (truncf .bf16 (mulf (logistic (addf (extractStridedSlice S512x512 ![0, 512] (k0_pay2 (F := Ideal) v0 v4 v6) Facts₀.slices_S512x1536_o0_512_S512x512)
            (extractStridedSlice S512x512 ![0, 512] (k0_pay3 (F := Ideal) v2 v8 v10) Facts₀.slices_S512x1024_o0_512_S512x512))) v2) Facts₀.bitsLt_bf16_f32)
          (shapeCast S512x512 v12 Facts₀.shapeCasts_S512x512_S512x512) (constant S512x512 .f32 0x00000000#32) (ix2 p q))
      + broadcastTo S512x512 (shapeCast S1x512 v14 Facts₀.shapeCasts_S512_S1x512) Facts₀.broadcasts_S1x512_S512x512 (ix2 p q)) = _
  rw [sliceH, pay2_apply, mmH, bias_512, shapeCast_self]
  simp only [reset_apply]

/-- The stored value: the update gate mixes the previous state with the candidate. -/
theorem out_entry (x0 : Vec Ideal S512x1024 .f32) (x1 : Vec Ideal S512x512 .f32) (x2 : Vec Ideal S1024x1536 .bf16) (x3 : Vec Ideal S1536 .f32)
    (x4 : Vec Ideal S512x1024 .bf16) (x5 : Vec Ideal S1024 .f32) (x6 : Vec Ideal S512x512 .bf16) (x7 : Vec Ideal S512 .f32) (p q : Fin 512) :
    out0_8 (F := Ideal) x0 x1 x2 x3 x4 x5 x6 x7 (ix2 p q)
      = entry (fun k => x0 (ix2 p k)) (fun k => x1 (ix2 p k)) x2 x3 x4 x5 x6 x7 q := by
  unfold out0_8
  rw [View.canon_unit_zero hz2]
  simp only [View.ld_unit_zero (S := S512x1024) hz2, View.ld_unit_zero (S := S512x512) hz2, View.ld_unit_zero (S := S1024x1536) hz2,
    View.ld_unit_zero (S := S1536) hz1, View.ld_unit_zero (S := S1024) hz1, View.ld_unit_zero (S := S512) hz1]
  show k0_pay6 (F := Ideal) x0 x1 x2 x3 x4 x5 (ix2 p q)
      + (k0_pay7 (F := Ideal) (ix2 p q) - k0_pay4 (F := Ideal) x0 x1 x2 x3 x4 x5 (ix2 p q)) * k0_pay5 (F := Ideal) x0 x1 x2 x3 x4 x5 x6 x7 (ix2 p q) = _
  have h6 : k0_pay6 (F := Ideal) x0 x1 x2 x3 x4 x5 (ix2 p q) = k0_pay4 (F := Ideal) x0 x1 x2 x3 x4 x5 (ix2 p q) * x1 (ix2 p q) := rfl
  have h7 : k0_pay7 (F := Ideal) (ix2 p q) = one := rfl
  rw [h6, h7, pay4_apply, pay5_apply]
  rfl

end Cert.KernelIdeal.Entry

end
-- ==== Proof.KernelIdealHost.lean ====
/-
  What the call finds in the five buffers the host lines compute before it, at the ideal reading where a change
  of float format is the identity: the three input-projection matrices joined side by side (1024 × 1536), their
  three bias vectors joined end to end (1536), the two recurrent matrices joined side by side (512 × 1024),
  their two bias vectors joined (1024), and the candidate's recurrent matrix itself (512 × 512).
-/
import proofs.«136520_j56487409877294_1_alg».proof.Proof.KernelIdealFrame
import Idealize.ShloMosaic.PureOps.Ideal
import Idealize.ShloMosaic.Lib.StableHlo.Run
import Idealize.ShloMosaic.Lib.Pipeline.Value

set_option maxRecDepth 16384

noncomputable section

namespace Cert.KernelIdeal.HostSide

open Cert.KernelIdeal Cert.KernelIdeal.Gen Cert.KernelIdeal.Frame
open Idealize.ShloMosaic Idealize.ShloMosaic.TcCoe Idealize.SL.Sem Idealize.ShloMosaic.StableHlo

variable (m : (ℓ : Loc nD τ sig) → Buf (Elt Ideal) ℓ)

/-- The three input-projection matrices side by side. -/
def Wj (c : Dev nD) : S1024x1536.Idx → EReal :=
  concatenate S1024x1536 1 [⟨S1024x512, m ((c : Thread nD τ).loc main_arg2)⟩, ⟨S1024x512, m ((c : Thread nD τ).loc main_arg6)⟩, ⟨S1024x512, m ((c : Thread nD τ).loc main_arg10)⟩] Facts₀.concatenates_S1024x512_S1024x512_S1024x512_S1024x1536_d1
/-- Their bias vectors end to end. -/
def bWj (c : Dev nD) : S1536.Idx → EReal :=
  concatenate S1536 0 [⟨S512, m ((c : Thread nD τ).loc main_arg3)⟩, ⟨S512, m ((c : Thread nD τ).loc main_arg7)⟩, ⟨S512, m ((c : Thread nD τ).loc main_arg11)⟩] Facts₀.concatenates_S512_S512_S512_S1536_d0
/-- The two recurrent matrices side by side. -/
def Uj (c : Dev nD) : S512x1024.Idx → EReal :=
  concatenate S512x1024 1 [⟨S512x512, m ((c : Thread nD τ).loc main_arg4)⟩, ⟨S512x512, m ((c : Thread nD τ).loc main_arg8)⟩] Facts₀.concatenates_S512x512_S512x512_S512x1024_d1
/-- Their bias vectors end to end. -/
def bUj (c : Dev nD) : S1024.Idx → EReal :=
  concatenate S1024 0 [⟨S512, m ((c : Thread nD τ).loc main_arg5)⟩, ⟨S512, m ((c : Thread nD τ).loc main_arg9)⟩] Facts₀.concatenates_S512_S512_S1024_d0

theorem V_v1 (c : Dev nD) : (V m c main_v1 : S1024x1536.Idx → EReal) = Wj m c := by
  dsimp only [V, hostOps0]; after_results; rfl
theorem V_v2 (c : Dev nD) : (V m c main_v2 : S1536.Idx → EReal) = bWj m c := by
  dsimp only [V, hostOps0]; after_results; rfl
theorem V_v4 (c : Dev nD) : (V m c main_v4 : S512x1024.Idx → EReal) = Uj m c := by
  dsimp only [V, hostOps0]; after_results; rfl
theorem V_v5 (c : Dev nD) : (V m c main_v5 : S1024.Idx → EReal) = bUj m c := by
  dsimp only [V, hostOps0]; after_results; rfl
theorem V_v6 (c : Dev nD) : (V m c main_v6 : S512x512.Idx → EReal) = m ((c : Thread nD τ).loc main_arg12) := by
  dsimp only [V, hostOps0]; after_results; rfl

end Cert.KernelIdeal.HostSide

end
-- ==== Proof.KernelIdealArray.lean ====
/-
  From blocks to the array.  Point `t` of the 64 handles rows [512·t, 512·t + 512) of the batch: it is given
  those rows of the input and of the previous state, and all of every weight and bias window, and it writes
  back exactly those rows of the result.  A row of the new state depends only on the same row of the two
  row-blocked inputs, so what point `t` writes back is block `t` of ONE whole-array function — the specification's
  new state of all 32768 rows — and the 64 blocks tile the result, so the result array ends as that function.
-/
import proofs.«136520_j56487409877294_1_alg».proof.Proof.KernelIdealEntry
import proofs.«136520_j56487409877294_1_alg».proof.Proof.KernelIdealHost

set_option maxRecDepth 16384

noncomputable section

namespace Cert.KernelIdeal.Arr

open Cert.KernelIdeal Cert.KernelIdeal.Gen Cert.KernelIdeal.Frame Cert.KernelIdeal.HostSide Cert.KernelIdeal.Entry Cert.GruSpec
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result array: the new state of all 32768 rows, from the argument arrays (the weights joined). -/
def G (c : Dev nD) : S32768x512.Idx → EReal :=
  state (R := 32768) (m ((c : Thread nD τ).loc main_arg0)) (m ((c : Thread nD τ).loc main_arg1)) (Wj m c) (bWj m c) (Uj m c) (bUj m c)
    (m ((c : Thread nD τ).loc main_arg12)) (m ((c : Thread nD τ).loc main_arg13))

/-- The printed index maps over the grid: the two row-blocked inputs and the result move with the point, every
    weight and bias window stays at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem t_lt (t : Fin cfg0.N) : t.val < 64 := Nat.lt_of_lt_of_eq t.isLt N_0

/-- The row of the batch that row `p` of point `t`'s block is. -/
abbrev rowOf (t : Fin cfg0.N) (p : Fin 512) : Fin 32768 := ⟨t.val * 512 + p.val, by have := t_lt t; have := p.isLt; omega⟩

/-! ## The input blocks -/

theorem blk0 (c : Dev nD) (t : Fin cfg0.N) (p : Fin 512) (k : Fin 1024) :
    (iblk m c 0 t : S512x1024.Idx → EReal) (ix2 p k) = m ((c : Thread nD τ).loc main_arg0) (ix2 (rowOf t p) k) := by
  obtain ⟨e00, e01, -⟩ := idx_facts t
  show V m c main_arg0 (((cfg0.win 0).blk t).view.emb (ix2 p k)) = _
  rw [V_main_arg0]
  refine congrArg _ (funext fun a => Fin.ext ?_)
  match a with
  | ⟨0, _⟩ => show win0_0.index t (0 : Fin 2) * 512 + 1 * p.val = t.val * 512 + p.val; rw [e00]; omega
  | ⟨1, _⟩ => show win0_0.index t (1 : Fin 2) * 1024 + 1 * k.val = k.val; rw [e01]; omega

theorem blk1 (c : Dev nD) (t : Fin cfg0.N) (p : Fin 512) (k : Fin 512) :
    (iblk m c 1 t : S512x512.Idx → EReal) (ix2 p k) = m ((c : Thread nD τ).loc main_arg1) (ix2 (rowOf t p) k) := by
  obtain ⟨-, -, e10, e11, -⟩ := idx_facts t
  show V m c main_arg1 (((cfg0.win 1).blk t).view.emb (ix2 p k)) = _
  rw [V_main_arg1]
  refine congrArg _ (funext fun a => Fin.ext ?_)
  match a with
  | ⟨0, _⟩ => show win0_1.index t (0 : Fin 2) * 512 + 1 * p.val = t.val * 512 + p.val; rw [e10]; omega
  | ⟨1, _⟩ => show win0_1.index t (1 : Fin 2) * 512 + 1 * k.val = k.val; rw [e11]; omega

theorem blk2 (c : Dev nD) (t : Fin cfg0.N) : (iblk m c 2 t : S1024x1536.Idx → EReal) = Wj m c := by
  obtain ⟨-, -, -, -, e0, e1, -⟩ := idx_facts t
  funext y
  show V m c main_v1 (((cfg0.win 2).blk t).view.emb y) = _
  rw [V_v1]
  refine congrArg _ (funext fun a => Fin.ext ?_)
  match a with
  | ⟨0, _⟩ => show win0_2.index t (0 : Fin 2) * 1024 + 1 * (y 0).val = (y 0).val; rw [e0]; omega
  | ⟨1, _⟩ => show win0_2.index t (1 : Fin 2) * 1536 + 1 * (y 1).val = (y 1).val; rw [e1]; omega

theorem blk3 (c : Dev nD) (t : Fin cfg0.N) : (iblk m c 3 t : S1536.Idx → EReal) = bWj m c := by
  obtain ⟨-, -, -, -, -, -, e0, -⟩ := idx_facts t
  funext y
  show V m c main_v2 (((cfg0.win 3).blk t).view.emb y) = _
  rw [V_v2]
  refine congrArg _ (funext fun a => Fin.ext ?_)
  match a with
  | ⟨0, _⟩ => show win0_3.index t (0 : Fin 1) * 1536 + 1 * (y 0).val = (y 0).val; rw [e0]; omega

theorem blk4 (c : Dev nD) (t : Fin cfg0.N) : (iblk m c 4 t : S512x1024.Idx → EReal) = Uj m c := by
  obtain ⟨-, -, -, -, -, -, -, e0, e1, -⟩ := idx_facts t
  funext y
  show V m c main_v4 (((cfg0.win 4).blk t).view.emb y) = _
  rw [V_v4]
  refine congrArg _ (funext fun a => Fin.ext ?_)
  match a with
  | ⟨0, _⟩ => show win0_4.index t (0 : Fin 2) * 512 + 1 * (y 0).val = (y 0).val; rw [e0]; omega
  | ⟨1, _⟩ => show win0_4.index t (1 : Fin 2) * 1024 + 1 * (y 1).val = (y 1).val; rw [e1]; omega

theorem blk5 (c : Dev nD) (t : Fin cfg0.N) : (iblk m c 5 t : S1024.Idx → EReal) = bUj m c := by
  obtain ⟨-, -, -, -, -, -, -, -, -, e0, -⟩ := idx_facts t
  funext y
  show V m c main_v5 (((cfg0.win 5).blk t).view.emb y) = _
  rw [V_v5]
  refine congrArg _ (funext fun a => Fin.ext ?_)
  match a with
  | ⟨0, _⟩ => show win0_5.index t (0 : Fin 1) * 1024 + 1 * (y 0).val = (y 0).val; rw [e0]; omega

theorem blk6 (c : Dev nD) (t : Fin cfg0.N) : (iblk m c 6 t : S512x512.Idx → EReal) = m ((c : Thread nD τ).loc main_arg12) := by
  obtain ⟨-, -, -, -, -, -, -, -, -, -, e0, e1, -⟩ := idx_facts t
  funext y
  show V m c main_v6 (((cfg0.win 6).blk t).view.emb y) = _
  rw [V_v6]
  refine congrArg _ (funext fun a => Fin.ext ?_)
  match a with
  | ⟨0, _⟩ => show win0_6.index t (0 : Fin 2) * 512 + 1 * (y 0).val = (y 0).val; rw [e0]; omega
  | ⟨1, _⟩ => show win0_6.index t (1 : Fin 2) * 512 + 1 * (y 1).val = (y 1).val; rw [e1]; omega

theorem blk7 (c : Dev nD) (t : Fin cfg0.N) : (iblk m c 7 t : S512.Idx → EReal) = m ((c : Thread nD τ).loc main_arg13) := by
  obtain ⟨-, -, -, -, -, -, -, -, -, -, -, -, e0, -⟩ := idx_facts t
  funext y
  show V m c main_arg13 (((cfg0.win 7).blk t).view.emb y) = _
  rw [V_main_arg13]
  refine congrArg _ (funext fun a => Fin.ext ?_)
  match a with
  | ⟨0, _⟩ => show win0_7.index t (0 : Fin 1) * 512 + 1 * (y 0).val = (y 0).val; rw [e0]; omega

/-! ## What a point writes back -/

/-- Point `t` writes back block `t` of `G`. -/
theorem flushed_eq (c : Dev nD) (t : Fin cfg0.N) :
    (dats m 0 c).flushed 8 t = ((cfg0.win 8).blk t).view.read (Elt Ideal) (G m c) := by
  show (cfg0.win 8).cut (grid0.coords t) ((dats m 0 c).after 8 t) = _
  rw [after0_8]
  funext j
  obtain ⟨p, q, rfl⟩ : ∃ (p q : Fin 512), j = (ix2 p q : S512x512.Idx) := ⟨j 0, j 1, eq_ix2 (n0 := 512) (n1 := 512) j⟩
  obtain ⟨-, -, -, -, -, -, -, -, -, -, -, -, -, e80, e81⟩ := idx_facts t
  have he : ((cfg0.win 8).blk t).view.emb (ix2 p q) = (ix2 (rowOf t p) q : S32768x512.Idx) := by
    funext a; apply Fin.ext
    match a with
    | ⟨0, _⟩ => show win0_8.index t (0 : Fin 2) * 512 + 1 * p.val = t.val * 512 + p.val; rw [e80]; omega
    | ⟨1, _⟩ => show win0_8.index t (1 : Fin 2) * 512 + 1 * q.val = q.val; rw [e81]; omega
  show out0_8 (F := Ideal) (iblk m c 0 t) (iblk m c 1 t) (iblk m c 2 t) (iblk m c 3 t) (iblk m c 4 t) (iblk m c 5 t) (iblk m c 6 t) (iblk m c 7 t) (ix2 p q)
      = G m c (((cfg0.win 8).blk t).view.emb (ix2 p q))
  rw [he]
  refine (out_entry (iblk m c 0 t) (iblk m c 1 t) (iblk m c 2 t) (iblk m c 3 t) (iblk m c 4 t) (iblk m c 5 t) (iblk m c 6 t) (iblk m c 7 t) p q).trans ?_
  have h2 := blk2 m c t
  have h3 := blk3 m c t
  have h4 := blk4 m c t
  have h5 := blk5 m c t
  have h6 := blk6 m c t
  have h7 := blk7 m c t
  have h0 : (fun k : Fin 1024 => (iblk m c 0 t : S512x1024.Idx → EReal) (ix2 p k)) = fun k => m ((c : Thread nD τ).loc main_arg0) (ix2 (rowOf t p) k) :=
    funext fun k => blk0 m c t p k
  have h1 : (fun k : Fin 512 => (iblk m c 1 t : S512x512.Idx → EReal) (ix2 p k)) = fun k => m ((c : Thread nD τ).loc main_arg1) (ix2 (rowOf t p) k) :=
    funext fun k => blk1 m c t p k
  show entry (fun k : Fin 1024 => (iblk m c 0 t : S512x1024.Idx → EReal) (ix2 p k)) (fun k : Fin 512 => (iblk m c 1 t : S512x512.Idx → EReal) (ix2 p k))
      (iblk m c 2 t : S1024x1536.Idx → EReal) (iblk m c 3 t : S1536.Idx → EReal) (iblk m c 4 t : S512x1024.Idx → EReal) (iblk m c 5 t : S1024.Idx → EReal)
      (iblk m c 6 t : S512x512.Idx → EReal) (iblk m c 7 t : S512.Idx → EReal) q = _
  rw [h0, h1, h2, h3, h4, h5, h6, h7]
  rfl

/-! ## The blocks tile the result -/

theorem mem_blk (t : Fin cfg0.N) (i : S32768x512.Idx) :
    i ∈ ((cfg0.win 8).blk t).view.set ↔ ∀ a : Fin 2, win0_8.index t a * S512x512.size a ≤ (i a).val ∧ (i a).val < win0_8.index t a * S512x512.size a + S512x512.size a := by
  show i ∈ ((View.whole main_v7).slice (win0_8.rect t)).set ↔ _
  rw [View.set_slice_whole, Rect.mem_set_unit]
  exact Iff.rfl

/-- Row `r` of the result is in the block of point `r / 512`. -/
theorem cover (i : S32768x512.Idx) : ∃ t : Fin cfg0.N, (cfg0.win 8).flush t = true ∧ i ∈ ((cfg0.win 8).blk t).view.set := by
  have hi0 : (i 0).val < 32768 := (i 0).isLt
  have hi1 : (i 1).val < 512 := (i 1).isLt
  have hN : (i 0).val / 512 < cfg0.N := by show _ < grid0.N; rw [N_0]; omega
  obtain ⟨-, -, -, -, -, -, -, -, -, -, -, -, -, e80, e81⟩ := idx_facts ⟨(i 0).val / 512, hN⟩
  refine ⟨⟨(i 0).val / 512, hN⟩, flush0_8 _, ?_⟩
  rw [mem_blk]
  intro a
  match a with
  | ⟨0, _⟩ =>
    show win0_8.index ⟨(i 0).val / 512, hN⟩ (0 : Fin 2) * 512 ≤ (i 0).val ∧ (i 0).val < win0_8.index ⟨(i 0).val / 512, hN⟩ (0 : Fin 2) * 512 + 512
    rw [e80]; show (i 0).val / 512 * 512 ≤ (i 0).val ∧ (i 0).val < (i 0).val / 512 * 512 + 512; omega
  | ⟨1, _⟩ =>
    show win0_8.index ⟨(i 0).val / 512, hN⟩ (1 : Fin 2) * 512 ≤ (i 1).val ∧ (i 1).val < win0_8.index ⟨(i 0).val / 512, hN⟩ (1 : Fin 2) * 512 + 512
    rw [e81]; omega

/-- The result array after the run. -/
theorem final (c : Dev nD) : (dats m 0 c).arrAt 8 cfg0.N = G m c :=
  (dats m 0 c).arrAt_eq_of_cover 8 (G m c) (fun t _ => flushed_eq m c t) cover

/-! ## The run, read -/

/-- Every weakly fair execution ends with the result array at `G` of the argument arrays, the arguments unchanged. -/
theorem run : θ_run defs (onTc (τ := τ) (main (F := Ideal))) ⟨m, fun _ => 0, ρ⟩ fun r => ∀ c : Dev nD,
      r.2.mem ((c.tc : Thread nD τ).loc main_v7) = G m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c).1 8).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).1 7).trans (((dats m 0 c).arrAt_in 7 rfl _).trans ((A_eq m c 7).trans (V_main_arg13 m c)))⟩)
    (run_main m ρ)

end Cert.KernelIdeal.Arr

end
-- ==== Proof.RefIsSpec.lean ====
/-
  The reference program computes the gated-recurrent-unit step of the specification, entry by entry.

  Each stage of the reference is read at an index ix2 p j: the input projection plus its bias is the
  specification's proj at column j, the recurrent projection plus its bias is recur at column j, the two
  gates are the logistic function of the sums of the matching columns (the reference spells the logistic
  function as 1 / (1 + exp (-x)) with the float word of 1.0), and the last stage is the specification's entry.
  The four joined weight and bias arrays are kept as whole arrays on both sides.
-/
import proofs.«136520_j56487409877294_1_alg».proof.Proof.Gen.ReferenceIdeal.Read
import proofs.«136520_j56487409877294_1_alg».proof.Proof.GruSpec
import Idealize.ShloMosaic.Lib.IdealHost
import Idealize.ShloMosaic.Lib.ValueIdx
import Idealize.ShloMosaic.PureOps.Ideal.Laws

noncomputable section

namespace Cert.RefSpec

open Cert.ReferenceIdeal Cert.ReferenceIdeal.Gen Cert.ReferenceIdeal.Read Cert.GruSpec
open Idealize.ShloMosaic Idealize.ShloMosaic.TcCoe Idealize.SL.Sem Idealize.ShloMosaic.StableHlo Idealize.ShloMosaic.ValueIdx
open scoped BigOperators

variable (x0 : (⟨S32768x1024, .f32⟩ : BufTy).Contents (Elt Ideal))
  (x1 : (⟨S32768x512, .f32⟩ : BufTy).Contents (Elt Ideal))
  (x2 : (⟨S1024x512, .f32⟩ : BufTy).Contents (Elt Ideal))
  (x3 : (⟨S512, .f32⟩ : BufTy).Contents (Elt Ideal))
  (x4 : (⟨S512x512, .f32⟩ : BufTy).Contents (Elt Ideal))
  (x5 : (⟨S512, .f32⟩ : BufTy).Contents (Elt Ideal))
  (x6 : (⟨S1024x512, .f32⟩ : BufTy).Contents (Elt Ideal))
  (x7 : (⟨S512, .f32⟩ : BufTy).Contents (Elt Ideal))
  (x8 : (⟨S512x512, .f32⟩ : BufTy).Contents (Elt Ideal))
  (x9 : (⟨S512, .f32⟩ : BufTy).Contents (Elt Ideal))
  (x10 : (⟨S1024x512, .f32⟩ : BufTy).Contents (Elt Ideal))
  (x11 : (⟨S512, .f32⟩ : BufTy).Contents (Elt Ideal))
  (x12 : (⟨S512x512, .f32⟩ : BufTy).Contents (Elt Ideal))
  (x13 : (⟨S512, .f32⟩ : BufTy).Contents (Elt Ideal))

/-- The input projection plus its bias, read at row p and column j. -/
theorem v7_at (p : Fin 32768) (j : Fin 1536) :
    val_main_v7 (F := Ideal) x0 x2 x3 x6 x7 x10 x11 (ix2 p j)
      = proj (fun k => x0 (ix2 p k)) (val_main_v0 (F := Ideal) x2 x6 x10) (val_main_v1 (F := Ideal) x3 x7 x11) j := by
  have e1 : ∀ k : Fin 1024, lidx_main_v4 (ix2 p j) k = ix2 p k := fun k =>
    funext fun a => by match a with | ⟨0, _⟩ => rfl | ⟨1, _⟩ => rfl
  have e2 : ∀ k : Fin 1024, ridx_main_v4 (ix2 p j) k = ix2 k j := fun k =>
    funext fun a => by match a with | ⟨0, _⟩ => rfl | ⟨1, _⟩ => rfl
  have e3 : idx_main_v5 (idx_main_v6 (ix2 p j)) = ix1 j :=
    funext fun a => by match a with | ⟨0, _⟩ => rfl
  rw [val_main_v7_apply, val_main_v4_apply, val_main_v6_apply, val_main_v5_apply, e3]
  simp only [e1, e2]
  rfl

/-- The recurrent projection plus its bias, read at row p and column j. -/
theorem v11_at (p : Fin 32768) (j : Fin 1024) :
    val_main_v11 (F := Ideal) x1 x4 x5 x8 x9 (ix2 p j)
      = recur (fun k => x1 (ix2 p k)) (val_main_v2 (F := Ideal) x4 x8) (val_main_v3 (F := Ideal) x5 x9) j := by
  have e1 : ∀ k : Fin 512, lidx_main_v8 (ix2 p j) k = ix2 p k := fun k =>
    funext fun a => by match a with | ⟨0, _⟩ => rfl | ⟨1, _⟩ => rfl
  have e2 : ∀ k : Fin 512, ridx_main_v8 (ix2 p j) k = ix2 k j := fun k =>
    funext fun a => by match a with | ⟨0, _⟩ => rfl | ⟨1, _⟩ => rfl
  have e3 : idx_main_v9 (idx_main_v10 (ix2 p j)) = ix1 j :=
    funext fun a => by match a with | ⟨0, _⟩ => rfl
  rw [val_main_v11_apply, val_main_v8_apply, val_main_v10_apply, val_main_v9_apply, e3]
  simp only [e1, e2]
  rfl

/-- The update gate, read at row p and column q. -/
theorem v23_at (p : Fin 32768) (q : Fin 512) :
    val_main_v23 (F := Ideal) x0 x1 x2 x3 x4 x5 x6 x7 x8 x9 x10 x11 (ix2 p q)
      = Ideal.logistic
          (proj (fun k => x0 (ix2 p k)) (val_main_v0 (F := Ideal) x2 x6 x10) (val_main_v1 (F := Ideal) x3 x7 x11) (colZ q)
            + recur (fun k => x1 (ix2 p k)) (val_main_v2 (F := Ideal) x4 x8) (val_main_v3 (F := Ideal) x5 x9) (colZ' q)) := by
  have e1 : idx_main_v12 (ix2 p q) = ix2 p (colZ q) :=
    funext fun a => by match a with | ⟨0, _⟩ => rfl | ⟨1, _⟩ => rfl
  have e2 : idx_main_v15 (ix2 p q) = ix2 p (colZ' q) :=
    funext fun a => by match a with | ⟨0, _⟩ => rfl | ⟨1, _⟩ => rfl
  rw [val_main_v23_apply, val_main_v22_apply, val_main_cst_0_apply, val_main_v21_apply, val_main_v20_apply,
    val_main_cst_apply, val_main_v19_apply, val_main_v18_apply, val_main_v17_apply, val_main_v12_apply,
    val_main_v15_apply, e1, e2, v7_at, v11_at]
  simp only [Ideal.hostDivf_def, Ideal.addf_def, Ideal.hostUnary_exp_def, Ideal.hostNegf_def, Ideal.negf_def,
    Ideal.ofBits_def, Ideal.ofBits_one_f32]
  rfl

/-- The reset gate, read at row p and column q. -/
theorem v30_at (p : Fin 32768) (q : Fin 512) :
    val_main_v30 (F := Ideal) x0 x1 x2 x3 x4 x5 x6 x7 x8 x9 x10 x11 (ix2 p q)
      = Ideal.logistic
          (proj (fun k => x0 (ix2 p k)) (val_main_v0 (F := Ideal) x2 x6 x10) (val_main_v1 (F := Ideal) x3 x7 x11) (colR q)
            + recur (fun k => x1 (ix2 p k)) (val_main_v2 (F := Ideal) x4 x8) (val_main_v3 (F := Ideal) x5 x9) (colR' q)) := by
  have e1 : idx_main_v13 (ix2 p q) = ix2 p (colR q) :=
    funext fun a => by match a with | ⟨0, _⟩ => rfl | ⟨1, _⟩ => rfl
  have e2 : idx_main_v16 (ix2 p q) = ix2 p (colR' q) :=
    funext fun a => by match a with | ⟨0, _⟩ => rfl | ⟨1, _⟩ => rfl
  rw [val_main_v30_apply, val_main_v29_apply, val_main_cst_2_apply, val_main_v28_apply, val_main_v27_apply,
    val_main_cst_1_apply, val_main_v26_apply, val_main_v25_apply, val_main_v24_apply, val_main_v13_apply,
    val_main_v16_apply, e1, e2, v7_at, v11_at]
  simp only [Ideal.hostDivf_def, Ideal.addf_def, Ideal.hostUnary_exp_def, Ideal.hostNegf_def, Ideal.negf_def,
    Ideal.ofBits_def, Ideal.ofBits_one_f32]
  rfl

/-- The reference's result is the specification's new state, the joined weights and biases as whole arrays. -/
theorem ref_eq (x0 : (⟨S32768x1024, .f32⟩ : BufTy).Contents (Elt Ideal))
    (x1 : (⟨S32768x512, .f32⟩ : BufTy).Contents (Elt Ideal))
    (x2 : (⟨S1024x512, .f32⟩ : BufTy).Contents (Elt Ideal))
    (x3 : (⟨S512, .f32⟩ : BufTy).Contents (Elt Ideal))
    (x4 : (⟨S512x512, .f32⟩ : BufTy).Contents (Elt Ideal))
    (x5 : (⟨S512, .f32⟩ : BufTy).Contents (Elt Ideal))
    (x6 : (⟨S1024x512, .f32⟩ : BufTy).Contents (Elt Ideal))
    (x7 : (⟨S512, .f32⟩ : BufTy).Contents (Elt Ideal))
    (x8 : (⟨S512x512, .f32⟩ : BufTy).Contents (Elt Ideal))
    (x9 : (⟨S512, .f32⟩ : BufTy).Contents (Elt Ideal))
    (x10 : (⟨S1024x512, .f32⟩ : BufTy).Contents (Elt Ideal))
    (x11 : (⟨S512, .f32⟩ : BufTy).Contents (Elt Ideal))
    (x12 : (⟨S512x512, .f32⟩ : BufTy).Contents (Elt Ideal))
    (x13 : (⟨S512, .f32⟩ : BufTy).Contents (Elt Ideal)) :
    Cert.ReferenceIdeal.Read.val_main_v42 (F := Ideal) x0 x1 x2 x3 x4 x5 x6 x7 x8 x9 x10 x11 x12 x13
      = Cert.GruSpec.state (R := 32768) x0 x1 (Cert.ReferenceIdeal.Read.val_main_v0 (F := Ideal) x2 x6 x10)
          (Cert.ReferenceIdeal.Read.val_main_v1 (F := Ideal) x3 x7 x11)
          (Cert.ReferenceIdeal.Read.val_main_v2 (F := Ideal) x4 x8)
          (Cert.ReferenceIdeal.Read.val_main_v3 (F := Ideal) x5 x9) x12 x13 := by
  funext i
  obtain ⟨p, q, rfl⟩ : ∃ (p : Fin 32768) (q : Fin 512), i = ValueIdx.ix2 p q := ⟨i 0, i 1, ValueIdx.eq_ix2 i⟩
  have e1 : idx_main_v14 (ix2 p q) = ix2 p (colH q) :=
    funext fun a => by match a with | ⟨0, _⟩ => rfl | ⟨1, _⟩ => rfl
  have e2 : ∀ k : Fin 512, lidx_main_v32 (ix2 p q) k = ix2 p k := fun k =>
    funext fun a => by match a with | ⟨0, _⟩ => rfl | ⟨1, _⟩ => rfl
  have e3 : ∀ k : Fin 512, ridx_main_v32 (ix2 p q) k = ix2 k q := fun k =>
    funext fun a => by match a with | ⟨0, _⟩ => rfl | ⟨1, _⟩ => rfl
  have e4 : idx_main_v34 (idx_main_v35 (ix2 p q)) = ix1 q :=
    funext fun a => by match a with | ⟨0, _⟩ => rfl
  rw [val_main_v42_apply, val_main_v38_apply, val_main_v41_apply, val_main_v40_apply, val_main_v39_apply,
    val_main_cst_3_apply, val_main_v37_apply, val_main_v36_apply, val_main_v33_apply, val_main_v14_apply,
    val_main_v32_apply, val_main_v35_apply, val_main_v34_apply, e1, e4, v23_at, v7_at]
  simp only [e2, e3, val_main_v31_apply, v30_at]
  simp only [Ideal.addf_def, Ideal.subf_def, Ideal.mulf_def, Ideal.hostUnary_tanh_def, Ideal.ofBits_def]
  rfl

end Cert.RefSpec

end
-- ==== Proof.lean ====
/-
  The fused gated-recurrent-unit step against its plain reference, at the ideal reading.

  Both programs compute, for every batch row, the same expression of that row of the input and of the previous
  state and of the weights (GruSpec): the kernel on 64 blocks of 512 rows with its weights joined and re-formatted
  by host lines before the call (a change of float format is the identity on the extended reals), the reference
  on all rows at once.  The three frames: the two kernel programs by the pipelined call's frame run over a body
  that only loads its inputs and stores its output block; the reference by its run.  No rewrite was applied when
  the kernel was idealized, so nothing is owed for it.  The values: the kernel's result array is the
  specification's state (the 64 written-back blocks tile it), and so is the reference's last stage, read entry
  by entry; the argument arrays agree, so the two are one array.
-/
import proofs.«136520_j56487409877294_1_alg».proof.Defs
import proofs.«136520_j56487409877294_1_alg».proof.Proof.Gen.Kernel
import proofs.«136520_j56487409877294_1_alg».proof.Proof.Gen.KernelIdeal
import proofs.«136520_j56487409877294_1_alg».proof.Proof.Gen.ReferenceIdeal
import proofs.«136520_j56487409877294_1_alg».proof.Proof.Gen.Pre_finite_inputs
import proofs.«136520_j56487409877294_1_alg».proof.Proof.Gen.ReferenceIdeal.Run
import proofs.«136520_j56487409877294_1_alg».proof.Proof.Gen.ReferenceIdeal.Read
import proofs.«136520_j56487409877294_1_alg».proof.Proof.KernelFrame
import proofs.«136520_j56487409877294_1_alg».proof.Proof.KernelIdealFrame
import proofs.«136520_j56487409877294_1_alg».proof.Proof.KernelIdealArray
import proofs.«136520_j56487409877294_1_alg».proof.Proof.RefIsSpec
import Idealize.ShloMosaic.Adequacy
import Idealize.ShloMosaic.Init

set_option maxRecDepth 16384

noncomputable section

namespace Cert.Proof

open Idealize.ShloMosaic Idealize.SL.Sem

theorem frame_kernel : Cert.frame_Kernel := fun m ρ _ => Cert.Kernel.Frame.frame (F := Bits) m ρ

theorem frame_kernelIdeal : Cert.frame_KernelIdeal := fun m ρ _ => Cert.KernelIdeal.Frame.frame (F := Ideal) m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's state of the (agreeing) argument arrays. -/
theorem algebraic : Cert.algebraic_KernelIdeal_ReferenceIdeal := by
  intro m ρ m' ρ' _ hagree
  refine ⟨fun c => Cert.KernelIdeal.Arr.G m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v42_eq, Cert.RefSpec.ref_eq, a0, a1, a2, a3, a4, a5, a6, a7, a8, a9, a10, a11, a12, a13]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
